-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S128 .f32) (main_arg6 : FVec F S3x128 .f32) (main_arg7 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S3x128 .f32) (main_arg7 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S1x128 : Shape := ⟨2, ![1, 128]⟩
abbrev S1x3 : Shape := ⟨2, ![1, 3]⟩
abbrev S5000x128 : Shape := ⟨2, ![5000, 128]⟩
abbrev S5000x1 : Shape := ⟨2, ![5000, 1]⟩
abbrev S128x3 : Shape := ⟨2, ![128, 3]⟩
abbrev S5000x3 : Shape := ⟨2, ![5000, 3]⟩

abbrev nBuf : Space → Nat
  | .hbm => 39
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S3x128, .f32⟩
  | .hbm, ⟨7, _⟩ => ⟨S3, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .i32⟩
  | .hbm, ⟨16, _⟩ => ⟨S650000, .i32⟩
  | .hbm, ⟨17, _⟩ => ⟨S650000, .i1⟩
  | .hbm, ⟨18, _⟩ => ⟨S_, .i32⟩
  | .hbm, ⟨19, _⟩ => ⟨S650000, .i32⟩
  | .hbm, ⟨20, _⟩ => ⟨S650000, .i32⟩
  | .hbm, ⟨21, _⟩ => ⟨S650000, .i32⟩
  | .hbm, ⟨22, _⟩ => ⟨S650000x1, .i32⟩
  | .hbm, ⟨23, _⟩ => ⟨S650000x128, .f32⟩
  | .hbm, ⟨24, _⟩ => ⟨S_, .f32⟩
  | .hbm, ⟨25, _⟩ => ⟨S50000x128, .f32⟩
  | .hbm, ⟨26, _⟩ => ⟨S650000x1, .i32⟩
  | .hbm, ⟨27, _⟩ => ⟨S50000x128, .f32⟩
  | .hbm, ⟨28, _⟩ => ⟨S_, .f32⟩
  | .hbm, ⟨29, _⟩ => ⟨S650000, .f32⟩
  | .hbm, ⟨30, _⟩ => ⟨S_, .f32⟩
  | .hbm, ⟨31, _⟩ => ⟨S50000, .f32⟩
  | .hbm, ⟨32, _⟩ => ⟨S650000x1, .i32⟩
  | .hbm, ⟨33, _⟩ => ⟨S50000, .f32⟩
  | .hbm, ⟨34, _⟩ => ⟨S50000x1, .f32⟩
  | .hbm, ⟨35, _⟩ => ⟨S1x128, .f32⟩
  | .hbm, ⟨36, _⟩ => ⟨S1x128, .f32⟩
  | .hbm, ⟨37, _⟩ => ⟨S1x3, .f32⟩
  | .hbm, ⟨38, _⟩ => ⟨S3, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S3x128, .f32⟩
  | .local _ .vmem, ⟨9, _⟩ => ⟨S1x3, .f32⟩
  | .local _ .vmem, ⟨10, _⟩ => ⟨S3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S650000_S650000x1_0 : S650000.BroadcastsInDim S650000x1 (![0] : Fin 1 → Fin S650000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  shapeCasts_S3_S1x3 : S3.ShapeCasts S1x3
  inb_S3_S3_0 : ∀ a, (![0] : Fin 1 → Nat) a + S3.size a ≤ S3.size a
  h_S3 : 0 < S3.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S3x128_S3x128_0_0 : ∀ a, (![0, 0] : Fin 2 → Nat) a + S3x128.size a ≤ S3x128.size a
  h_S3x128 : 0 < S3x128.numel
  transposes_S3x128_p1_0_S128x3 : S3x128.Transposes [1, 0] S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  reduces_S5000x3_S3 : S5000x3.Reduces [0] S3
  shapeCasts_S3_S3 : S3.ShapeCasts S3
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128.size a ≤ S3x128.size a
  hwx0_6 : ∀ i : grid0.Coords, EltTy.bits .f32 = 32 ∨ (Rect.block (s := S3x128) S3x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)

variable [Facts₀]

def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S3.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S1x128 : Shape := ⟨2, ![1, 128]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S128x3 : Shape := ⟨2, ![128, 3]⟩
abbrev S50000x3 : Shape := ⟨2, ![50000, 3]⟩
abbrev S1x3 : Shape := ⟨2, ![1, 3]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S3x128, .f32⟩
  | .hbm, ⟨7, _⟩ => ⟨S3, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S128x128, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S650000, .i32⟩
  | .hbm, ⟨22, _⟩ => ⟨S650000, .i1⟩
  | .hbm, ⟨23, _⟩ => ⟨S_, .i32⟩
  | .hbm, ⟨24, _⟩ => ⟨S650000, .i32⟩
  | .hbm, ⟨25, _⟩ => ⟨S650000, .i32⟩
  | .hbm, ⟨26, _⟩ => ⟨S650000, .i32⟩
  | .hbm, ⟨27, _⟩ => ⟨S650000x1, .i32⟩
  | .hbm, ⟨28, _⟩ => ⟨S650000x128, .f32⟩
  | .hbm, ⟨29, _⟩ => ⟨S_, .f32⟩
  | .hbm, ⟨30, _⟩ => ⟨S50000x128, .f32⟩
  | .hbm, ⟨31, _⟩ => ⟨S650000x1, .i32⟩
  | .hbm, ⟨32, _⟩ => ⟨S50000x128, .f32⟩
  | .hbm, ⟨33, _⟩ => ⟨S_, .f32⟩
  | .hbm, ⟨34, _⟩ => ⟨S650000, .f32⟩
  | .hbm, ⟨35, _⟩ => ⟨S_, .f32⟩
  | .hbm, ⟨36, _⟩ => ⟨S50000, .f32⟩
  | .hbm, ⟨37, _⟩ => ⟨S650000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S128x3, .f32⟩
  | .hbm, ⟨54, _⟩ => ⟨S50000x3, .f32⟩
  | .hbm, ⟨55, _⟩ => ⟨S1x3, .f32⟩
  | .hbm, ⟨56, _⟩ => ⟨S50000x3, .f32⟩
  | .hbm, ⟨57, _⟩ => ⟨S50000x3, .f32⟩
  | .hbm, ⟨58, _⟩ => ⟨S_, .f32⟩
  | .hbm, ⟨59, _⟩ => ⟨S3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S650000 : S_.BroadcastsInDim S650000 (![] : Fin 0 → Fin S650000.rank)
  bcast_S650000_S650000x1_0 : S650000.BroadcastsInDim S650000x1 (![0] : Fin 1 → Fin S650000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S3x128_S128x3_1_0 : S3x128.Transposes [1, 0] S128x3
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  reducesTo_S50000x3_S3_d0 : S50000x3.ReducesTo [0] S3
  h_S_ : 0 < S_.numel
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S50000_S650000x1_S650000_n_0_0_1_wf : ScatterDims.WF S50000 S650000x1 S650000 [] [0] [0] 1
  dot_S50000x128_S128x3_S50000x3_1_0_0_1_n_n_wf : DotDims.WF S50000x128 S128x3 S50000x3 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KernelBlocks.lean ====
/-
  What each window's block holds at a grid point, as entries of the arrays the region finds.

  The two row windows hold, at point t, rows 5000·t … 5000·t + 4999 of the summed features and of the count column; the six
  other windows hold their whole arrays at every point. A block's coordinate on an axis is its block index times the block's
  extent plus the coordinate inside the block, and the block indices are decided once over the ten grid points.
-/
import proofs.«133329_j33921651703918_2_alg».proof.Proof.Gen.KernelIdeal.Value
import Idealize.ShloMosaic.Lib.ValueIdx

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx

variable (m : (ℓ : Loc nD τ sig) → Buf (Elt Ideal) ℓ) (c : Dev nD)

theorem idx_facts0 : ∀ t : Fin cfg0.N, win0_0.index t (0 : Fin 2) = t.val ∧ win0_0.index t (1 : Fin 2) = 0 :=
  (by decide +kernel : ∀ t : Fin grid0.N, _)

theorem idx_facts1 : ∀ t : Fin cfg0.N, win0_1.index t (0 : Fin 2) = t.val ∧ win0_1.index t (1 : Fin 2) = 0 :=
  (by decide +kernel : ∀ t : Fin grid0.N, _)

/-- Row r of point t's blocks is a node. -/
theorem node_lt (t : Fin cfg0.N) (r : Fin 5000) : 5000 * t.val + r.val < 50000 := by
  have := lt_of_lt_of_eq t.isLt (show cfg0.N = 10 from N_0)
  have := r.isLt
  omega

/-- Window 0's block at point t is rows 5000·t … of the summed features. -/
theorem iblk0_apply (t : Fin cfg0.N) (r : Fin 5000) (l : Fin 128) :
    (iblk m c 0 t : S5000x128.Idx → EReal) (ix2 r l)
      = (V m c main_v16 : S50000x128.Idx → EReal) (ix2 (⟨5000 * t.val + r.val, node_lt t r⟩ : Fin 50000) l) := by
  unfold iblk
  rw [View.read_apply]
  refine (cast_eq _ _).trans ?_
  refine congrArg (V m c main_v16 : S50000x128.Idx → EReal) ?_
  obtain ⟨e0, e1⟩ := idx_facts0 t
  funext a
  apply Fin.ext
  match a with
  | ⟨0, _⟩ => show win0_0.index t (0 : Fin 2) * 5000 + 1 * r.val = 5000 * t.val + r.val; omega
  | ⟨1, _⟩ => show win0_0.index t (1 : Fin 2) * 128 + 1 * l.val = l.val; omega

/-- Window 1's block at point t is rows 5000·t … of the count column. -/
theorem iblk1_apply (t : Fin cfg0.N) (r : Fin 5000) (u : Fin 1) :
    (iblk m c 1 t : S5000x1.Idx → EReal) (ix2 r u)
      = (V m c main_v21 : S50000x1.Idx → EReal) (ix2 (⟨5000 * t.val + r.val, node_lt t r⟩ : Fin 50000) u) := by
  unfold iblk
  rw [View.read_apply]
  refine (cast_eq _ _).trans ?_
  refine congrArg (V m c main_v21 : S50000x1.Idx → EReal) ?_
  obtain ⟨e0, e1⟩ := idx_facts1 t
  funext a
  apply Fin.ext
  match a with
  | ⟨0, _⟩ => show win0_1.index t (0 : Fin 2) * 5000 + 1 * r.val = 5000 * t.val + r.val; omega
  | ⟨1, _⟩ => show win0_1.index t (1 : Fin 2) * 1 + 1 * u.val = u.val; omega

theorem idx_facts2 : ∀ t : Fin cfg0.N, win0_2.index t (0 : Fin 2) = 0 ∧ win0_2.index t (1 : Fin 2) = 0 :=
  (by decide +kernel : ∀ t : Fin grid0.N, _)

/-- Window 2's block at every point is its whole array. -/
theorem iblk2_eq (t : Fin cfg0.N) :
    (iblk m c 2 t : S128x128.Idx → EReal) = (V m c main_arg2 : S128x128.Idx → EReal) := by
  funext y
  show (V m c main_arg2 : S128x128.Idx → EReal) (((cfg0.win 2).blk t).view.emb y) = _
  refine congrArg (V m c main_arg2 : S128x128.Idx → EReal) ?_
  obtain ⟨e0, e1⟩ := idx_facts2 t
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem idx_facts3 : ∀ t : Fin cfg0.N, win0_3.index t (0 : Fin 2) = 0 ∧ win0_3.index t (1 : Fin 2) = 0 :=
  (by decide +kernel : ∀ t : Fin grid0.N, _)

/-- Window 3's block at every point is its whole array. -/
theorem iblk3_eq (t : Fin cfg0.N) :
    (iblk m c 3 t : S1x128.Idx → EReal) = (V m c main_v22 : S1x128.Idx → EReal) := by
  funext y
  show (V m c main_v22 : S1x128.Idx → EReal) (((cfg0.win 3).blk t).view.emb y) = _
  refine congrArg (V m c main_v22 : S1x128.Idx → EReal) ?_
  obtain ⟨e0, e1⟩ := idx_facts3 t
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem idx_facts4 : ∀ t : Fin cfg0.N, win0_4.index t (0 : Fin 2) = 0 ∧ win0_4.index t (1 : Fin 2) = 0 :=
  (by decide +kernel : ∀ t : Fin grid0.N, _)

/-- Window 4's block at every point is its whole array. -/
theorem iblk4_eq (t : Fin cfg0.N) :
    (iblk m c 4 t : S128x128.Idx → EReal) = (V m c main_arg4 : S128x128.Idx → EReal) := by
  funext y
  show (V m c main_arg4 : S128x128.Idx → EReal) (((cfg0.win 4).blk t).view.emb y) = _
  refine congrArg (V m c main_arg4 : S128x128.Idx → EReal) ?_
  obtain ⟨e0, e1⟩ := idx_facts4 t
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem idx_facts5 : ∀ t : Fin cfg0.N, win0_5.index t (0 : Fin 2) = 0 ∧ win0_5.index t (1 : Fin 2) = 0 :=
  (by decide +kernel : ∀ t : Fin grid0.N, _)

/-- Window 5's block at every point is its whole array. -/
theorem iblk5_eq (t : Fin cfg0.N) :
    (iblk m c 5 t : S1x128.Idx → EReal) = (V m c main_v23 : S1x128.Idx → EReal) := by
  funext y
  show (V m c main_v23 : S1x128.Idx → EReal) (((cfg0.win 5).blk t).view.emb y) = _
  refine congrArg (V m c main_v23 : S1x128.Idx → EReal) ?_
  obtain ⟨e0, e1⟩ := idx_facts5 t
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem idx_facts6 : ∀ t : Fin cfg0.N, win0_6.index t (0 : Fin 2) = 0 ∧ win0_6.index t (1 : Fin 2) = 0 :=
  (by decide +kernel : ∀ t : Fin grid0.N, _)

/-- Window 6's block at every point is its whole array. -/
theorem iblk6_eq (t : Fin cfg0.N) :
    (iblk m c 6 t : S3x128.Idx → EReal) = (V m c main_arg6 : S3x128.Idx → EReal) := by
  funext y
  show (V m c main_arg6 : S3x128.Idx → EReal) (((cfg0.win 6).blk t).view.emb y) = _
  refine congrArg (V m c main_arg6 : S3x128.Idx → EReal) ?_
  obtain ⟨e0, e1⟩ := idx_facts6 t
  funext a
  apply Fin.ext
  match a with
  | ⟨0, _⟩ => show win0_6.index t (0 : Fin 2) * 3 + 1 * (y 0).val = (y 0).val; omega
  | ⟨1, _⟩ => show win0_6.index t (1 : Fin 2) * 128 + 1 * (y 1).val = (y 1).val; omega

theorem idx_facts7 : ∀ t : Fin cfg0.N, win0_7.index t (0 : Fin 2) = 0 ∧ win0_7.index t (1 : Fin 2) = 0 :=
  (by decide +kernel : ∀ t : Fin grid0.N, _)

/-- Window 7's block at every point is its whole array. -/
theorem iblk7_eq (t : Fin cfg0.N) :
    (iblk m c 7 t : S1x3.Idx → EReal) = (V m c main_v24 : S1x3.Idx → EReal) := by
  funext y
  show (V m c main_v24 : S1x3.Idx → EReal) (((cfg0.win 7).blk t).view.emb y) = _
  refine congrArg (V m c main_v24 : S1x3.Idx → EReal) ?_
  obtain ⟨e0, e1⟩ := idx_facts7 t
  funext a
  apply Fin.ext
  match a with
  | ⟨0, _⟩ => show win0_7.index t (0 : Fin 2) * 1 + 1 * (y 0).val = (y 0).val; omega
  | ⟨1, _⟩ => show win0_7.index t (1 : Fin 2) * 3 + 1 * (y 1).val = (y 1).val; omega

end Cert.KernelIdeal.Blocks

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibCarriedRow.lean ====
/-
  A row of running totals carried in a buffer, read back: general lemmas.

  Stores that each cover their whole buffer: a load of the whole buffer after such stores reads the value of the
  LAST one, whatever came before (`readCov_cons_unit_zero`; the library has the one-store case).

  A `[1, 1, c]` row kept in a buffer and used as a vector `[c]` or as a `[1, c]` row: the three shape casts read at
  an index (`cast_11c_c`, `cast_c_11c`, `cast_11c_1c`).

  On the extended reals, the sum of an `[n, c]` array along its FIRST axis reads, at column `d`, the sum over the
  `n` rows of the column's entries (`colSum_apply`): the column totals of a block of rows.

  All at any extents.
-/
import Idealize.ShloMosaic.Lib.Pipeline.Value
import Idealize.ShloMosaic.Lib.ValueIdx
import Idealize.ShloMosaic.PureOps.Ideal.Laws

noncomputable section

open scoped BigOperators

namespace Cert.CarriedRow

open Idealize.ShloMosaic Idealize.ShloMosaic.ValueIdx

section stores
variable {Val : EltTy → Type} {S : Shape} {e : EltTy}

/-- A load of the whole buffer, after stores of which the LAST covers the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]
end stores

section layout
variable {α : Type}

/-- A `[1, 1, c]` row read as a vector. -/
theorem cast_11c_c {c : ℕ} (x : (⟨3, ![1, 1, c]⟩ : Shape).Idx → α) (h : (⟨3, ![1, 1, c]⟩ : Shape).ShapeCasts ⟨1, ![c]⟩)
    (d : Fin c) : shapeCast ⟨1, ![c]⟩ x h (ix1 d) = x (ix3 (0 : Fin 1) (0 : Fin 1) d) :=
  shapeCast_apply x h _ _ (by
    rw [Shape.rowMajor_val_three, Shape.rowMajor_val_one]
    show (0 * 1 + 0) * c + d.val = d.val
    simp)

/-- A vector read as a `[1, 1, c]` row. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, c]` row read as a `[1, c]` row. -/
theorem cast_11c_1c {c : ℕ} (x : (⟨3, ![1, 1, c]⟩ : Shape).Idx → α) (h : (⟨3, ![1, 1, c]⟩ : Shape).ShapeCasts ⟨2, ![1, c]⟩)
    (u : Fin 1) (d : Fin c) : shapeCast ⟨2, ![1, c]⟩ x h (ix2 u d) = x (ix3 (0 : Fin 1) (0 : Fin 1) d) :=
  shapeCast_apply x h _ _ (by
    have hu : u.val = 0 := by omega
    rw [Shape.rowMajor_val_three, Shape.rowMajor_val_two]
    show (0 * 1 + 0) * c + d.val = u.val * c + d.val
    simp [hu])
end layout

/-- The sum of an `[n, c]` array along its first axis reads, at column `d`, the sum of the column's entries. -/
theorem colSum_apply {n c : ℕ} (src : FVec Ideal ⟨2, ![n, c]⟩ .f32)
    (h : (⟨2, ![n, c]⟩ : Shape).Reduces [0] ⟨1, ![c]⟩) (hφ : FKind.Formats .f32)
    (hacc : (0x00000000#32 : BitVec 32) = 0x00000000#32) (d : Fin c) :
    multiReduction .add [0] ⟨1, ![c]⟩ src 0x00000000#32 h hφ hacc (ix1 d) = ∑ p : Fin n, src (ix2 p d) := by
  refine (Ideal.multiReduction_add_single src 0x00000000#32 h hφ hacc (ix1 d)).trans ?_
  refine Finset.sum_congr rfl fun k _ => congrArg src (funext fun ax => Fin.ext ?_)
  match ax with
  | ⟨0, _⟩ => rfl
  | ⟨1, _⟩ => rfl

end Cert.CarriedRow

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«133329_j33921651703918_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.Payload.lean ====
/-
  The kernel body's arithmetic, read at an index, on the extended reals.

  For one block of 5000 nodes the body takes the block's neighbour counts `cnt` (one column), the block's summed
  neighbour features `s` (128 columns), and the weights of three dense layers. For node `r` it forms the mean row
  `a(l) = s(r, l) / max(cnt(r, 0), 1)`; the linear layer `a'(k) = (∑ l, a(l) · wl(k, l)) + bl(0, k)`; the hidden layer
  `h(j) = max((∑ k, a'(k) · w1(j, k)) + b1(0, j), 0)`; and the output `(∑ j, h(j) · w2(d, j))` for each of the three
  outputs `d`. Each weight is stored with the output index first, so the body transposes it before the matrix product;
  the products accumulate into zero, so each is the plain matrix product. The changes of float format in between are
  the identity on extended reals.

  The block's contribution to the running column totals: the one-row bias `b2` is added to every row of the block's
  output, the 5000 rows are summed per column, and that is added to the totals so far. At the first block the totals
  start from the zero vector.
-/
import proofs.«133329_j33921651703918_2_alg».proof.Proof.Gen.KernelIdeal.Skeleton
import proofs.«133329_j33921651703918_2_alg».proof.Proof.LibDense
import proofs.«133329_j33921651703918_2_alg».proof.Proof.LibCarriedRow
import proofs.«133329_j33921651703918_2_alg».proof.Proof.LibRowBlocks
import proofs.«133329_j33921651703918_2_alg».proof.Proof.LibBiasRow
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Payload

open Cert.KernelIdeal Cert.KernelIdeal.Gen Idealize.ShloMosaic Idealize.ShloMosaic.ValueIdx Cert.Dense

/-- The zero vector the running totals start from reads zero at every column. -/
theorem pay2_apply (d : Fin 3) : k0_pay2 (F := Ideal) (ix1 d) = 0 := by
  show Ideal.ofBits .f32 0x00000000#32 = 0
  exact Ideal.ofBits_zero_f32

/-- The new running total of column `d`: the total so far plus the sum over the block's 5000 rows of the row's output
    at `d` with the bias of column `d` added. -/
theorem pay1_apply (P : FVec Ideal S5000x3 .f32) (b2 : Vec Ideal S1x3 .f32) (acc : Vec Ideal S3 .f32) (d : Fin 3) :
    k0_pay1 (F := Ideal) P b2 acc (ix1 d) = acc (ix1 d) + ∑ r : Fin 5000, (P (ix2 r d) + b2 (ix2 (0 : Fin 1) d)) := by
  unfold k0_pay1
  show shapeCast S3 acc shapeCasts_S3_S3 (ix1 d)
      + multiReduction (F := Ideal) .add [0] S3
          (addf P (broadcastTo S5000x3 (shapeCast S1x3 b2 shapeCasts_S1x3_S1x3) broadcasts_S1x3_S5000x3))
          0x00000000#32 reduces_S5000x3_S3 (.inl rfl) rfl (ix1 d) = _
  rw [shapeCast_self, shapeCast_self, Cert.CarriedRow.colSum_apply]
  refine congrArg _ (Finset.sum_congr rfl fun r _ => ?_)
  show P (ix2 r d) + broadcastTo S5000x3 b2 broadcasts_S1x3_S5000x3 (ix2 r d) = _
  rw [broadcastTo_1b_ab_apply]

/-! ## The stages of a node's output as arrays -/

/-- The mean rows of a block: each row of the sums divided by the row's count, the count taken as at least one. -/
def meanBlk (cnt : Mat 5000 1) (s : Mat 5000 128) : Mat 5000 128 :=
  fun i => Ideal.div (s i) (max (cnt (ix2 (c0 i) (0 : Fin 1))) 1)

theorem meanBlk_apply (cnt : Mat 5000 1) (s : Mat 5000 128) (r : Fin 5000) (l : Fin 128) :
    meanBlk cnt s (ix2 r l) = Ideal.div (s (ix2 r l)) (max (cnt (ix2 r (0 : Fin 1))) 1) := rfl

/-- A matrix with its two indices exchanged. -/
def tr {a b : ℕ} (A : Mat a b) : Mat b a := fun i => A (ix2 (c1 i) (c0 i))

theorem tr_apply {a b : ℕ} (A : Mat a b) (j : Fin b) (i : Fin a) : tr A (ix2 j i) = A (ix2 i j) := rfl

/-- The body's mean block: the sums divided by the counts' column, the column first raised to at least one and
    broadcast along the rows; the change of float format after it is the identity. -/
theorem vec_meanBlk (cnt : FVec Ideal S5000x1 .f32) (s : FVec Ideal S5000x128 .f32)
    (h1 : S5000x1.ShapeCasts S5000x1) (h2 : S5000x128.ShapeCasts S5000x128) (h3 : S5000x1.Broadcasts S5000x128)
    (hb : FTy.bits .bf16 < FTy.bits .f32) :
    (truncf .bf16 (divf (shapeCast S5000x128 s h2)
        (broadcastTo S5000x128
          (maximumf (shapeCast S5000x1 cnt h1) (broadcast S5000x1 (Scalar.ofBits (F := Ideal) .f32 0x3F800000#32))) h3)) hb
      : FVec Ideal S5000x128 .bf16) = meanBlk cnt s := by
  funext i
  obtain ⟨r, l, rfl⟩ : ∃ (r : Fin 5000) (l : Fin 128), i = ix2 r l := ⟨i 0, i 1, eq_ix2 i⟩
  show Ideal.div (shapeCast S5000x128 s h2 (ix2 r l))
      (broadcastTo S5000x128
        (maximumf (shapeCast S5000x1 cnt h1) (broadcast S5000x1 (Scalar.ofBits (F := Ideal) .f32 0x3F800000#32))) h3
        (ix2 r l)) = _
  rw [shapeCast_self, Cert.RowBlocks.broadcastTo_col_apply]
  show Ideal.div (s (ix2 r l)) (max (shapeCast S5000x1 cnt h1 (ix2 r (0 : Fin 1))) (Ideal.ofBits .f32 0x3F800000#32)) = _
  rw [shapeCast_self, Ideal.ofBits_one_f32]
  rfl

/-- A weight after its change of float format (the identity) and the body's transpose is the weight with its indices
    exchanged. -/
theorem vec_tr {a b : ℕ} (w : FVec Ideal ⟨2, ![a, b]⟩ .f32) (hb : FTy.bits .bf16 < FTy.bits .f32)
    (h : (⟨2, ![a, b]⟩ : Shape).Transposes [1, 0] ⟨2, ![b, a]⟩) :
    (transpose ⟨2, ![b, a]⟩ [1, 0] (truncf .bf16 w hb : FVec Ideal ⟨2, ![a, b]⟩ .bf16) h : FVec Ideal ⟨2, ![b, a]⟩ .bf16)
      = tr w := by
  funext i
  obtain ⟨j, k, rfl⟩ : ∃ (j : Fin b) (k : Fin a), i = ix2 j k := ⟨i 0, i 1, eq_ix2 i⟩
  exact transpose_ix2_apply _ h j k

/-- A one-row bias, cast to its own shape, broadcast to every row and added; the change of float format after it is
    the identity. -/
theorem vec_addRow (X : FVec Ideal S5000x128 .f32) (b : FVec Ideal S1x128 .f32) (h1 : S1x128.ShapeCasts S1x128)
    (h2 : S1x128.Broadcasts S5000x128) (hb : FTy.bits .bf16 < FTy.bits .f32) :
    (truncf .bf16 (addf X (broadcastTo S5000x128 (shapeCast S1x128 b h1) h2)) hb : FVec Ideal S5000x128 .bf16)
      = Cert.BiasRow.addRow X b := by
  rw [shapeCast_self]
  exact Cert.BiasRow.vecAddRow X b h2

/-- The same with the maximum against a zero splat after the addition. -/
theorem vec_reluBias (X : FVec Ideal S5000x128 .f32) (b : FVec Ideal S1x128 .f32) (h1 : S1x128.ShapeCasts S1x128)
    (h2 : S1x128.Broadcasts S5000x128) (hb : FTy.bits .bf16 < FTy.bits .f32) :
    (truncf .bf16 (maximumf (addf X (broadcastTo S5000x128 (shapeCast S1x128 b h1) h2))
        (broadcast S5000x128 (Scalar.ofBits (F := Ideal) .f32 0x00000000#32))) hb : FVec Ideal S5000x128 .bf16)
      = reluBias X b := by
  rw [shapeCast_self]
  exact vecReluBias X b h2

/-- The block's output as an array: three matrix products against the exchanged weights, a bias row after the first,
    a bias row and a maximum with zero after the second. -/
theorem pay3_eq (cnt : Vec Ideal S5000x1 .f32) (s : Vec Ideal S5000x128 .f32) (wl : Vec Ideal S128x128 .f32)
    (bl : Vec Ideal S1x128 .f32) (w1 : Vec Ideal S128x128 .f32) (b1 : Vec Ideal S1x128 .f32) (w2 : Vec Ideal S3x128 .f32) :
    k0_pay3 (F := Ideal) cnt s wl bl w1 b1 w2
      = mm (reluBias (mm (Cert.BiasRow.addRow (mm (meanBlk cnt s) (tr wl)) bl) (tr w1)) b1) (tr w2) := by
  unfold k0_pay3
  refine (matmul_zero_eq_mm dot_S5000x128_S128x3_S5000x3_1_0_0_1_n_n rfl rfl rfl rfl rfl rfl none _ _).trans ?_
  refine congrArg₂ mm ?_ (vec_tr w2 _ _)
  refine (vec_reluBias _ b1 _ _ _).trans (congrArg (fun X => reluBias X b1) ?_)
  refine (matmul_zero_eq_mm dot_S5000x128_S128x128_S5000x128_1_0_0_1_n_n rfl rfl rfl rfl rfl rfl none _ _).trans ?_
  refine congrArg₂ mm ?_ (vec_tr w1 _ _)
  refine (vec_addRow _ bl _ _ _).trans (congrArg (fun X => Cert.BiasRow.addRow X bl) ?_)
  refine (matmul_zero_eq_mm dot_S5000x128_S128x128_S5000x128_1_0_0_1_n_n rfl rfl rfl rfl rfl rfl none _ _).trans ?_
  exact congrArg₂ mm (vec_meanBlk cnt s _ _ _ _) (vec_tr wl _ _)

/-- The block's output for node `r` at output `d`: the mean row through the linear layer, the hidden layer with its
    maximum against zero, and the output weights. -/
theorem pay3_apply (cnt : Vec Ideal S5000x1 .f32) (s : Vec Ideal S5000x128 .f32) (wl : Vec Ideal S128x128 .f32)
    (bl : Vec Ideal S1x128 .f32) (w1 : Vec Ideal S128x128 .f32) (b1 : Vec Ideal S1x128 .f32) (w2 : Vec Ideal S3x128 .f32)
    (r : Fin 5000) (d : Fin 3) :
    k0_pay3 (F := Ideal) cnt s wl bl w1 b1 w2 (ix2 r d)
      = ∑ j : Fin 128, max ((∑ k : Fin 128, ((∑ l : Fin 128,
            Ideal.div (s (ix2 r l)) (max (cnt (ix2 r (0 : Fin 1))) 1) * wl (ix2 k l)) + bl (ix2 (0 : Fin 1) k)) * w1 (ix2 j k))
          + b1 (ix2 (0 : Fin 1) j)) 0 * w2 (ix2 d j) := by
  rw [pay3_eq]
  rfl

end Cert.KernelIdeal.Payload

end
-- ==== Proof.KernelNode.lean ====
/-
  One node's term of the idealized kernel, over arbitrary arrays.

  For node i and output d: the mean row a(l) = S(i,l) / max(C(i,0), 1); the linear layer a'(k) = (∑ l, a(l) · Wl(k,l)) + bl(0,k);
  the hidden layer h(j) = max((∑ k, a'(k) · W1(j,k)) + b1(0,j), 0); the output (∑ j, h(j) · W2(d,j)) + b2(0,d). The body computes
  this for row r of a block whenever the block's row r of sums and of counts is the arrays' row i.
-/
import proofs.«133329_j33921651703918_2_alg».proof.Proof.Payload

noncomputable section

namespace Cert.KernelIdeal.Node

open Cert.KernelIdeal Cert.KernelIdeal.Gen Cert.KernelIdeal.Payload
open Idealize.ShloMosaic Idealize.ShloMosaic.ValueIdx

/-- Node i's contribution to output d. -/
def nodeG (S : S50000x128.Idx → EReal) (C : S50000x1.Idx → EReal) (wl : S128x128.Idx → EReal) (bl : S1x128.Idx → EReal)
    (w1 : S128x128.Idx → EReal) (b1 : S1x128.Idx → EReal) (w2 : S3x128.Idx → EReal) (b2 : S1x3.Idx → EReal)
    (i : Fin 50000) (d : Fin 3) : EReal :=
  (∑ j : Fin 128, max ((∑ k : Fin 128, ((∑ l : Fin 128,
        Ideal.div (S (ix2 i l)) (max (C (ix2 i (0 : Fin 1))) 1) * wl (ix2 k l)) + bl (ix2 (0 : Fin 1) k)) * w1 (ix2 j k))
    + b1 (ix2 (0 : Fin 1) j)) 0 * w2 (ix2 d j)) + b2 (ix2 (0 : Fin 1) d)

/-- Row r of a block whose sums and counts are the arrays' row i gives node i's term. -/
theorem pay3_node (cnt : Vec Ideal S5000x1 .f32) (s : Vec Ideal S5000x128 .f32) (wl : Vec Ideal S128x128 .f32)
    (bl : Vec Ideal S1x128 .f32) (w1 : Vec Ideal S128x128 .f32) (b1 : Vec Ideal S1x128 .f32) (w2 : Vec Ideal S3x128 .f32)
    (b2 : Vec Ideal S1x3 .f32) (S : S50000x128.Idx → EReal) (C : S50000x1.Idx → EReal) (i : Fin 50000) (r : Fin 5000)
    (d : Fin 3) (hs : ∀ l : Fin 128, s (ix2 r l) = S (ix2 i l)) (hc : cnt (ix2 r (0 : Fin 1)) = C (ix2 i (0 : Fin 1))) :
    k0_pay3 (F := Ideal) cnt s wl bl w1 b1 w2 (ix2 r d) + b2 (ix2 (0 : Fin 1) d) = nodeG S C wl bl w1 b1 w2 b2 i d := by
  rw [pay3_apply]
  unfold nodeG
  simp only [hs, hc]

end Cert.KernelIdeal.Node

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.KernelSum.lean ====
/-
  The idealized kernel's result as one sum over the nodes.

  At grid point n the two row windows hold rows 5000·n … 5000·n + 4999 of the summed features and of the counts, and the six
  other windows hold their whole arrays, so the point's share of output d is the sum over those 5000 nodes of the node's term.
  The output buffer starts from zero at the first point and adds each point's share, so after the tenth point it holds zero
  plus the sum of the terms of all 50000 nodes (the ten blocks of 5000 rows tile the node range; only commutativity and
  associativity of the sum are used).
-/
import proofs.«133329_j33921651703918_2_alg».proof.Proof.KernelBlocks
import proofs.«133329_j33921651703918_2_alg».proof.Proof.KernelNode
import proofs.«133329_j33921651703918_2_alg».proof.Proof.LibFoldSum

noncomputable section

namespace Cert.KernelIdeal.Sum

open Cert.KernelIdeal Cert.KernelIdeal.Gen Cert.KernelIdeal.Value Cert.KernelIdeal.Payload Cert.KernelIdeal.Blocks
open Cert.KernelIdeal.Node
open Idealize.ShloMosaic Idealize.ShloMosaic.TcCoe Idealize.SL.Sem Idealize.ShloMosaic.ValueIdx

variable (m : (ℓ : Loc nD τ sig) → Buf (Elt Ideal) ℓ) (c : Dev nD)

/-- Node i's contribution to output d, over the arrays the region finds. -/
def nodeK (i : Fin 50000) (d : Fin 3) : EReal :=
  nodeG (V m c main_v16) (V m c main_v21) (V m c main_arg2) (V m c main_v22) (V m c main_arg4) (V m c main_v23)
    (V m c main_arg6) (V m c main_v24) i d

/-- Point n's share of output d: the sum of its 5000 nodes' terms. -/
def share (n : ℕ) (h : n < cfg0.N) (d : Fin 3) : EReal :=
  ∑ r : Fin 5000, nodeK m c ⟨5000 * n + r.val, node_lt ⟨n, h⟩ r⟩ d

/-- The body's row sum at point n is the point's share. -/
theorem rows_eq_share (n : ℕ) (h : n < cfg0.N) (d : Fin 3) :
    (∑ r : Fin 5000, (k0_pay3 (F := Ideal) (iblk m c 1 ⟨n, h⟩) (iblk m c 0 ⟨n, h⟩) (iblk m c 2 ⟨n, h⟩) (iblk m c 3 ⟨n, h⟩)
        (iblk m c 4 ⟨n, h⟩) (iblk m c 5 ⟨n, h⟩) (iblk m c 6 ⟨n, h⟩) (ix2 r d)
        + (iblk m c 7 ⟨n, h⟩ : S1x3.Idx → EReal) (ix2 (0 : Fin 1) d))) = share m c n h d := by
  unfold share
  refine Finset.sum_congr rfl fun r _ => ?_
  refine (pay3_node (iblk m c 1 ⟨n, h⟩) (iblk m c 0 ⟨n, h⟩) (iblk m c 2 ⟨n, h⟩) (iblk m c 3 ⟨n, h⟩)
    (iblk m c 4 ⟨n, h⟩) (iblk m c 5 ⟨n, h⟩) (iblk m c 6 ⟨n, h⟩) (iblk m c 7 ⟨n, h⟩) (V m c main_v16) (V m c main_v21)
    ⟨5000 * n + r.val, node_lt ⟨n, h⟩ r⟩ r d (fun l => iblk0_apply m c ⟨n, h⟩ r l) (iblk1_apply m c ⟨n, h⟩ r 0)).trans ?_
  unfold nodeK
  rw [iblk2_eq m c ⟨n, h⟩, iblk3_eq m c ⟨n, h⟩, iblk4_eq m c ⟨n, h⟩, iblk5_eq m c ⟨n, h⟩, iblk6_eq m c ⟨n, h⟩,
    iblk7_eq m c ⟨n, h⟩]

/-- The first point leaves zero plus its share. -/
theorem reset_apply (n : ℕ) (h : n < cfg0.N) (d : Fin 3) :
    (reset8 m c n h : S3.Idx → EReal) (ix1 d) = 0 + share m c n h d := by
  unfold reset8
  refine (pay1_apply (k0_pay3 (F := Ideal) (iblk m c 1 ⟨n, h⟩) (iblk m c 0 ⟨n, h⟩) (iblk m c 2 ⟨n, h⟩) (iblk m c 3 ⟨n, h⟩)
    (iblk m c 4 ⟨n, h⟩) (iblk m c 5 ⟨n, h⟩) (iblk m c 6 ⟨n, h⟩)) (iblk m c 7 ⟨n, h⟩) (k0_pay2 (F := Ideal)) d).trans ?_
  rw [pay2_apply d, rows_eq_share m c n h d]

/-- Every later point adds its share. -/
theorem step_apply (n : ℕ) (h : n < cfg0.N) (acc : Vec Ideal S3 .f32) (d : Fin 3) :
    (step8 m c n h acc : S3.Idx → EReal) (ix1 d) = acc (ix1 d) + share m c n h d := by
  unfold step8
  refine (pay1_apply (k0_pay3 (F := Ideal) (iblk m c 1 ⟨n, h⟩) (iblk m c 0 ⟨n, h⟩) (iblk m c 2 ⟨n, h⟩) (iblk m c 3 ⟨n, h⟩)
    (iblk m c 4 ⟨n, h⟩) (iblk m c 5 ⟨n, h⟩) (iblk m c 6 ⟨n, h⟩)) (iblk m c 7 ⟨n, h⟩) acc d).trans ?_
  rw [rows_eq_share m c n h d]

/-- After the run, output d is zero plus the sum of all nodes' terms. -/
theorem out_apply (d : Fin 3) :
    (G8 m c : S3.Idx → EReal) (ix1 d) = 0 + ∑ i : Fin 50000, nodeK m c i d := by
  have hN : cfg0.N = 10 := N_0
  have h9 : 0 + 9 < cfg0.N := by rw [hN]; norm_num
  have hrun : run8Of (ix1 d) = 0 := by
    show 1 * ((d.val) / 3 - 0) = 0
    have := d.isLt
    omega
  have hloc : loc8Of (ix1 d) = ix1 d := by
    funext a
    apply Fin.ext
    match a with
    | ⟨0, _⟩ => show d.val % 3 = d.val; have := d.isLt; omega
  have e : ∀ (b j : ℕ) (h : b + j < cfg0.N) (b' j' : ℕ) (h' : b' + j' < cfg0.N), b = b' → j = j' →
      Pipeline.accAt (reset8 m c) (step8 m c) b j h = Pipeline.accAt (reset8 m c) (step8 m c) b' j' h' := by
    intro b j h b' j' h' hb hj; subst hb; subst hj; rfl
  have hc : 10 * run8Of (ix1 d) + 9 < cfg0.N := by rw [hrun]; exact h9
  unfold G8
  rw [dif_pos hc, hloc, e (10 * run8Of (ix1 d)) 9 hc 0 9 h9 (by rw [hrun]) rfl]
  rw [Cert.FoldSum.accAt_sum (M := EReal) (reset8 m c) (step8 m c) (share m c) (reset_apply m c) (step_apply m c) 9 h9 d]
  refine congrArg (0 + ·) ?_
  rw [Cert.FoldSum.sum_blocks (A := 10) (B := 5000) (by norm_num) (fun i : Fin 50000 => nodeK m c i d)]
  exact Finset.sum_congr rfl fun n _ => Finset.sum_congr rfl fun r _ => rfl

end Cert.KernelIdeal.Sum

end
-- ==== Proof.KernelHost.lean ====
/-
  What the region finds in the arrays its windows stage: the host operations before the call, as terms of the arguments.

  Window 0's array is the segment sum, over the edges arriving at each node, of the raw feature rows gathered at the edges'
  sources; window 1's is the segment sum of ones (the in-degree with the self loop) laid out as a column; windows 3, 5 and 7
  stage the three bias vectors laid out as one-row arrays. The source and destination index columns are the same terms as the
  reference program's, so they are named by the reference's stage functions.
-/
import proofs.«133329_j33921651703918_2_alg».proof.Proof.Gen.KernelIdeal.Value
import proofs.«133329_j33921651703918_2_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

set_option maxHeartbeats 2000000 in
/-- The summed raw features: zero plus, at each node, the gathered source rows of its incoming edges. -/
theorem sums_eq : (V m c main_v16 : S50000x128.Idx → EReal)
    = Host.scatterAdd (F := Ideal) (φ := .f32) scatter_S50000x128_S650000x1_S650000x128_1_0_0_1
        (Cert.ReferenceIdeal.Read.val_main_v19 (F := Ideal))
        (Cert.ReferenceIdeal.Read.val_main_v20 (F := Ideal) (m (c, Proc.tc.devRef main_arg1)))
        (Host.gather (α := EReal) gather_S50000x128_S650000x1_S650000x128_1_0_n_n_0_1_1128 (m (c, Proc.tc.devRef main_arg0))
          (Cert.ReferenceIdeal.Read.val_main_v17 (F := Ideal) (m (c, Proc.tc.devRef main_arg1)))) := by
  dsimp only [V, hostOps0]
  after_results
  rfl

/-- The counts as a column: the segment sum of ones, reshaped. -/
theorem counts_eq : (V m c main_v21 : S50000x1.Idx → EReal)
    = shapeCast (α := EReal) S50000x1 (Host.scatterAdd (F := Ideal) (φ := .f32) scatter_S50000_S650000x1_S650000_n_0_0_1
        (Cert.ReferenceIdeal.Read.val_main_v23 (F := Ideal))
        (Cert.ReferenceIdeal.Read.val_main_v24 (F := Ideal) (m (c, Proc.tc.devRef main_arg1)))
        (Cert.ReferenceIdeal.Read.val_main_v22 (F := Ideal))) shapeCasts_S50000_S50000x1 := by
  dsimp only [V, hostOps0]
  after_results
  rfl

/-- The first bias as a one-row array. -/
theorem blin_eq : (V m c main_v22 : S1x128.Idx → EReal)
    = shapeCast S1x128 (m (c, Proc.tc.devRef main_arg3) : S128.Idx → EReal) shapeCasts_S128_S1x128 := by
  dsimp only [V, hostOps0]
  after_results
  rfl

/-- The second bias as a one-row array. -/
theorem b1_eq : (V m c main_v23 : S1x128.Idx → EReal)
    = shapeCast S1x128 (m (c, Proc.tc.devRef main_arg5) : S128.Idx → EReal) shapeCasts_S128_S1x128 := by
  dsimp only [V, hostOps0]
  after_results
  rfl

/-- The third bias as a one-row array. -/
theorem b2_eq : (V m c main_v24 : S1x3.Idx → EReal)
    = shapeCast S1x3 (m (c, Proc.tc.devRef main_arg7) : S3.Idx → EReal) shapeCasts_S3_S1x3 := by
  dsimp only [V, hostOps0]
  after_results
  rfl

end Cert.KernelIdeal.HostPrefix

end
-- ==== Proof.EdgeSets.lean ====
/-
  The graph read off the edge list: the source node of an edge, and the set of edges that arrive at a node.

  Edge e's source is its source index read as a signed integer and clamped into the node range, as a gather of rows reads it;
  edge e arrives at node i when its destination index, read as a signed integer, is i, as an accumulating scatter places it
  (an index outside the node range arrives nowhere). Both index columns are the reference program's stages of the edge list.
-/
import proofs.«133329_j33921651703918_2_alg».proof.Proof.Gen.ReferenceIdeal.Read
import Idealize.ShloMosaic.Lib.ValueIdx

noncomputable section

namespace Cert.Edges

open Cert.ReferenceIdeal Cert.ReferenceIdeal.Gen Cert.ReferenceIdeal.Read
open Idealize.ShloMosaic Idealize.ShloMosaic.ValueIdx

/-- The source node of edge e. -/
def src (x1 : (⟨S2x600000, .i32⟩ : BufTy).Contents (Elt Ideal)) (e : Fin 650000) : Fin 50000 :=
  ⟨min (val_main_v17 (F := Ideal) x1 (ix2 e (0 : Fin 1))).toInt.toNat (50000 - 1), by omega⟩

/-- The edges arriving at node i. -/
def hits (x1 : (⟨S2x600000, .i32⟩ : BufTy).Contents (Elt Ideal)) (i : Fin 50000) : Finset (Fin 650000) :=
  Finset.univ.filter (fun e : Fin 650000 => (val_main_v20 (F := Ideal) x1 (ix2 e (0 : Fin 1))).toInt = (i.val : Int))

end Cert.Edges

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«133329_j33921651703918_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.SelfLoop.lean ====
/-
  The self loops in the destination column.

  The graph gets one self loop per node: the destination vector is the 600000 given destinations followed by the node
  numbers 0, 1, …, 49999. So entry `600000 + i` of that vector is the 32-bit word of the number `i`, and read as a
  signed integer it is `i` itself, because `i < 50000 < 2 ^ 31`. In the destination column (the same vector as one
  column) the edge numbered `600000 + i` therefore names node `i`: every node has at least one incoming edge.
-/
import proofs.«133329_j33921651703918_2_alg».proof.Proof.Gen.ReferenceIdeal.Read
import Idealize.ShloMosaic.Lib.ValueIdx
import Idealize.ShloMosaic.Lib.ValueLayout
import Idealize.ShloMosaic.Lib.Pipeline.Value

noncomputable section

namespace Cert.ReferenceIdeal.SelfLoop

open Cert.ReferenceIdeal Cert.ReferenceIdeal.Gen Cert.ReferenceIdeal.Read Idealize.ShloMosaic Idealize.ShloMosaic.ValueIdx

/-- A number below `2 ^ 31`, as a 32-bit word read as a signed integer, is itself. -/
theorem toInt_ofNat_small (n : ℕ) (h : n < 2147483648) : (BitVec.ofNat 32 n).toInt = (n : Int) := by
  rw [BitVec.toInt_eq_toNat_cond, BitVec.toNat_ofNat, Nat.mod_eq_of_lt (by omega)]
  rw [if_pos (by omega)]

variable {F : FTy → Type} [FloatOps F]

/-- Entry `600000 + i` of the destination vector is the word of the number `i`: it falls in the second piece of the
    concatenation, the node numbers, at position `i`. -/
theorem v6_loop (x1 : (⟨S2x600000, .i32⟩ : BufTy).Contents (Elt F)) (i : Fin 50000) (j : S650000.Idx)
    (hj : (j 0).val = 600000 + i.val) : val_main_v6 (F := F) x1 j = BitVec.ofNat 32 i.val := by
  unfold val_main_v6
  refine (concatenate_pair_apply_right 0 _ _ concatenates_S600000_S50000_S650000_d0 j rfl rfl (ix1 i) ?_ ?_).trans ?_
  · intro b hb
    refine absurd (Fin.ext ?_) hb
    have hb1 : b.val < 1 := b.isLt
    show b.val = 0
    omega
  · show i.val + 600000 = (j 0).val
    omega
  · rfl

/-- In the destination column the edge numbered `600000 + i` names node `i`. -/
theorem loop_dst (x1 : (⟨S2x600000, .i32⟩ : BufTy).Contents (Elt Ideal)) (i : Fin 50000) :
    (val_main_v20 (F := Ideal) x1 (ix2 (⟨600000 + i.val, by omega⟩ : Fin 650000) (0 : Fin 1))).toInt = (i.val : Int) := by
  rw [val_main_v20_apply, v6_loop x1 i _ rfl]
  exact toInt_ofNat_small i.val (by omega)

/-- Every node is named by at least one edge of the destination column: its self loop. -/
theorem hits_nonempty (x1 : (⟨S2x600000, .i32⟩ : BufTy).Contents (Elt Ideal)) (i : Fin 50000) :
    (Finset.univ.filter (fun e : Fin 650000 =>
      (val_main_v20 (F := Ideal) x1 (ix2 e (0 : Fin 1))).toInt = (i.val : Int))).Nonempty :=
  ⟨⟨600000 + i.val, by omega⟩, Finset.mem_filter.2 ⟨Finset.mem_univ _, loop_dst x1 i⟩⟩

/-- The second scatter's destination column is the same column. -/
theorem v24_eq (x1 : (⟨S2x600000, .i32⟩ : BufTy).Contents (Elt Ideal)) :
    val_main_v24 (F := Ideal) x1 = val_main_v20 (F := Ideal) x1 := rfl

/-- In the second scatter's destination column the edge numbered `600000 + i` names node `i`. -/
theorem loop_dst24 (x1 : (⟨S2x600000, .i32⟩ : BufTy).Contents (Elt Ideal)) (i : Fin 50000) :
    (val_main_v24 (F := Ideal) x1 (ix2 (⟨600000 + i.val, by omega⟩ : Fin 650000) (0 : Fin 1))).toInt = (i.val : Int) :=
  loop_dst x1 i

/-- Every node is named by at least one edge of the second scatter's destination column. -/
theorem hits_nonempty24 (x1 : (⟨S2x600000, .i32⟩ : BufTy).Contents (Elt Ideal)) (i : Fin 50000) :
    (Finset.univ.filter (fun e : Fin 650000 =>
      (val_main_v24 (F := Ideal) x1 (ix2 e (0 : Fin 1))).toInt = (i.val : Int))).Nonempty :=
  hits_nonempty x1 i

end Cert.ReferenceIdeal.SelfLoop

end
-- ==== Proof.KernelSeg.lean ====
/-
  What the region finds in the arrays its windows stage, read at an index.

  Before the region the host sums, at every node `i`, the raw feature rows of the source nodes of the edges arriving at
  `i`, and counts those edges: entry `(i, l)` of the first array is zero plus the sum over the edges `e` arriving at `i` of
  the features of `e`'s source node in column `l`, and entry `(i, 0)` of the count column is zero plus one for each such edge.
  The three bias vectors are staged as one-row arrays, whose entry `(0, k)` is the vector's entry `k`.
-/
import proofs.«133329_j33921651703918_2_alg».proof.Proof.KernelHost
import proofs.«133329_j33921651703918_2_alg».proof.Proof.EdgeSets
import proofs.«133329_j33921651703918_2_alg».proof.Proof.LibSegmentSum
import proofs.«133329_j33921651703918_2_alg».proof.Proof.LibGatherRows
import proofs.«133329_j33921651703918_2_alg».proof.Proof.LibRowBlocks
import proofs.«133329_j33921651703918_2_alg».proof.Proof.SelfLoop
import Idealize.ShloMosaic.Lib.IdealHost
import Idealize.ShloMosaic.Lib.ValueIdx
import Idealize.ShloMosaic.Lib.ValueLayout
import Idealize.ShloMosaic.Lib.Pipeline.Value

noncomputable section

open scoped BigOperators

namespace Cert.KernelIdeal.Seg

open Cert.KernelIdeal Cert.KernelIdeal.Gen Cert.KernelIdeal.HostPrefix Idealize.ShloMosaic Idealize.ShloMosaic.TcCoe
open Idealize.SL.Sem Idealize.ShloMosaic.ValueIdx Cert.Edges

variable (m : (ℓ : Loc nD τ sig) → Buf (Elt Ideal) ℓ) (c : Dev nD)

/-- The first bias row at column `k` is the first bias vector's entry `k`. -/
theorem blin_apply (k : Fin 128) : (V m c main_v22 : S1x128.Idx → EReal) (ix2 (0 : Fin 1) k)
    = (m (c, Proc.tc.devRef main_arg3) : S128.Idx → EReal) (ix1 k) := by
  refine (congrFun (blin_eq m c) _).trans ?_
  exact shapeCast_a_1a_apply _ _ (0 : Fin 1) k

/-- The second bias row at column `j` is the second bias vector's entry `j`. -/
theorem b1_apply (j : Fin 128) : (V m c main_v23 : S1x128.Idx → EReal) (ix2 (0 : Fin 1) j)
    = (m (c, Proc.tc.devRef main_arg5) : S128.Idx → EReal) (ix1 j) := by
  refine (congrFun (b1_eq m c) _).trans ?_
  exact shapeCast_a_1a_apply _ _ (0 : Fin 1) j

/-- The third bias row at column `d` is the third bias vector's entry `d`. -/
theorem b2_apply (d : Fin 3) : (V m c main_v24 : S1x3.Idx → EReal) (ix2 (0 : Fin 1) d)
    = (m (c, Proc.tc.devRef main_arg7) : S3.Idx → EReal) (ix1 d) := by
  refine (congrFun (b2_eq m c) _).trans ?_
  exact shapeCast_a_1a_apply _ _ (0 : Fin 1) d

/-- The count column at node `i`: zero plus one for every edge arriving at `i`. -/
theorem counts_apply (i : Fin 50000) :
    (V m c main_v21 : S50000x1.Idx → EReal) (ix2 i (0 : Fin 1))
      = 0 + ∑ _e ∈ hits (m (c, Proc.tc.devRef main_arg1)) i, (1 : EReal) := by
  refine (congrFun (counts_eq m c) _).trans ?_
  refine (Cert.RowBlocks.shapeCast_col_apply _ shapeCasts_S50000_S50000x1 i (0 : Fin 1)).trans ?_
  refine (Cert.SegmentSum.segSumVec_apply scatter_S50000_S650000x1_S650000_n_0_0_1 rfl rfl rfl rfl _ _ _ i).trans ?_
  have h0 : Cert.ReferenceIdeal.Read.val_main_v23 (F := Ideal) (ix1 i) = 0 := by
    rw [Cert.ReferenceIdeal.Read.val_main_v23_apply, Cert.ReferenceIdeal.Read.val_main_cst_2_apply]
    exact Ideal.ofBits_zero_f32
  have h1 : ∀ e : Fin 650000, Cert.ReferenceIdeal.Read.val_main_v22 (F := Ideal) (ix1 e) = 1 := fun e => by
    rw [Cert.ReferenceIdeal.Read.val_main_v22_apply, Cert.ReferenceIdeal.Read.val_main_cst_1_apply]
    exact Ideal.ofBits_one_f32
  show Cert.ReferenceIdeal.Read.val_main_v23 (F := Ideal) (ix1 i)
      + ∑ e ∈ hits (m (c, Proc.tc.devRef main_arg1)) i, Cert.ReferenceIdeal.Read.val_main_v22 (F := Ideal) (ix1 e) = _
  rw [h0]
  exact congrArg _ (Finset.sum_congr rfl fun e _ => h1 e)

/-- The summed features at node `i`, column `l`: zero plus, over the edges arriving at `i`, the raw feature of each edge's
    source node in column `l`. -/
theorem sums_apply (i : Fin 50000) (l : Fin 128) :
    (V m c main_v16 : S50000x128.Idx → EReal) (ix2 i l)
      = 0 + Finset.sum (M := EReal) (hits (m (c, Proc.tc.devRef main_arg1)) i) fun e =>
          (m (c, Proc.tc.devRef main_arg0) : S50000x128.Idx → EReal) (ix2 (src (m (c, Proc.tc.devRef main_arg1)) e) l) := by
  refine (congrFun (sums_eq m c) _).trans ?_
  refine (Cert.SegmentSum.segSumRows_apply scatter_S50000x128_S650000x1_S650000x128_1_0_0_1 rfl rfl rfl rfl _ _ _ i l).trans ?_
  have h0 : Cert.ReferenceIdeal.Read.val_main_v19 (F := Ideal) (ix2 i l) = 0 := by
    rw [Cert.ReferenceIdeal.Read.val_main_v19_apply, Cert.ReferenceIdeal.Read.val_main_cst_apply]
    exact Ideal.ofBits_zero_f32
  show Cert.ReferenceIdeal.Read.val_main_v19 (F := Ideal) (ix2 i l)
      + ∑ e ∈ hits (m (c, Proc.tc.devRef main_arg1)) i,
          Host.gather (α := EReal) gather_S50000x128_S650000x1_S650000x128_1_0_n_n_0_1_1128 (m (c, Proc.tc.devRef main_arg0))
            (Cert.ReferenceIdeal.Read.val_main_v17 (F := Ideal) (m (c, Proc.tc.devRef main_arg1))) (ix2 e l) = _
  rw [h0]
  refine congrArg _ (Finset.sum_congr rfl fun e _ => ?_)
  exact Cert.GatherRows.gather_rows_apply (by decide) gather_S50000x128_S650000x1_S650000x128_1_0_n_n_0_1_1128
    rfl rfl rfl rfl rfl rfl rfl _ _ e l

end Cert.KernelIdeal.Seg

end
-- ==== Proof.RefStages.lean ====
/-
  The reference program at the instance where floats are extended reals, read stage by stage at explicit coordinates.

  For node i and output d the reference's result is  0 + ∑ i, ((∑ j, max ((∑ k, a(i,k) · W1(j,k)) + b1(j)) 0 · W2(d,j)) + b2(d)),
  where a(i,k) = S(i,k) / max(cnt(i), 1), S is the segment sum over incoming edges of the transformed rows
  y(n,l) = (∑ k, x(n,k) · W(l,k)) + b(l) gathered at the edges' sources, and cnt the segment sum of ones. The two segment
  sums and the gather stay closed here; only the dense stages around them are opened.
-/
import proofs.«133329_j33921651703918_2_alg».proof.Proof.Gen.ReferenceIdeal.Read
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S3x128, .f32⟩ : BufTy).Contents (Elt Ideal)) (x7 : (⟨S3, .f32⟩ : BufTy).Contents (Elt Ideal))

/-- The transformed features: row n of x times the transposed weight, plus the bias. -/
theorem y_apply (n : Fin 50000) (l : Fin 128) :
    val_main_v11 (F := Ideal) x0 x2 x3 (ix2 n l) = (∑ k : Fin 128, x0 (ix2 n k) * x2 (ix2 l k)) + x3 (ix1 l) := by
  rw [val_main_v11_apply, val_main_v8_apply, val_main_v10_apply, val_main_v9_apply]
  refine congrArg₂ (· + ·) (Finset.sum_congr rfl fun k _ => ?_) ?_
  · rw [val_main_v7_apply]
    refine congrArg₂ (· * ·) (congrArg x0 ?_) (congrArg x2 ?_)
    · funext a; match a with | ⟨0, _⟩ => rfl | ⟨1, _⟩ => rfl
    · funext a; match a with | ⟨0, _⟩ => rfl | ⟨1, _⟩ => rfl
  · refine congrArg x3 ?_
    funext a; match a with | ⟨0, _⟩ => rfl

/-- The divisor: the count at the node, at least one, the same along the row. -/
theorem den_apply (i : Fin 50000) (k : Fin 128) :
    val_main_v29 (F := Ideal) x1 (ix2 i k) = max (val_main_v25 (F := Ideal) x1 (ix1 i)) 1 := by
  rw [val_main_v29_apply, val_main_v28_apply, val_main_v27_apply, val_main_v26_apply, val_main_cst_3_apply]
  refine congrArg₂ max (congrArg (val_main_v25 (F := Ideal) x1) ?_) ?_
  · funext a; match a with | ⟨0, _⟩ => rfl
  · exact Ideal.ofBits_one_f32

/-- The mean row. -/
theorem mean_apply (i : Fin 50000) (k : Fin 128) :
    val_main_v30 (F := Ideal) x0 x1 x2 x3 (ix2 i k)
      = Ideal.div (val_main_v21 (F := Ideal) x0 x1 x2 x3 (ix2 i k)) (max (val_main_v25 (F := Ideal) x1 (ix1 i)) 1) := by
  rw [val_main_v30_apply, den_apply]; rfl

/-- The hidden layer. -/
theorem hidden_apply (i : Fin 50000) (j : Fin 128) :
    val_main_v36 (F := Ideal) x0 x1 x2 x3 x4 x5 (ix2 i j)
      = max ((∑ k : Fin 128, val_main_v30 (F := Ideal) x0 x1 x2 x3 (ix2 i k) * x4 (ix2 j k)) + x5 (ix1 j)) 0 := by
  rw [val_main_v36_apply, val_main_v35_apply, val_main_v32_apply, val_main_v34_apply, val_main_v33_apply,
    val_main_call0_v0_apply, val_main_call0_cst_apply]
  refine congrArg₂ max (congrArg₂ (· + ·) (Finset.sum_congr rfl fun k _ => ?_) (congrArg x5 ?_)) ?_
  · rw [val_main_v31_apply]
    refine congrArg₂ (· * ·) (congrArg (val_main_v30 (F := Ideal) x0 x1 x2 x3) ?_) (congrArg x4 ?_)
    · funext a; match a with | ⟨0, _⟩ => rfl | ⟨1, _⟩ => rfl
    · funext a; match a with | ⟨0, _⟩ => rfl | ⟨1, _⟩ => rfl
  · funext a; match a with | ⟨0, _⟩ => rfl
  · exact Ideal.ofBits_zero_f32

/-- One node's outputs. -/
theorem node_apply (i : Fin 50000) (d : Fin 3) :
    val_main_v41 (F := Ideal) x0 x1 x2 x3 x4 x5 x6 x7 (ix2 i d)
      = (∑ j : Fin 128, val_main_v36 (F := Ideal) x0 x1 x2 x3 x4 x5 (ix2 i j) * x6 (ix2 d j)) + x7 (ix1 d) := by
  rw [val_main_v41_apply, val_main_v38_apply, val_main_v40_apply, val_main_v39_apply]
  refine congrArg₂ (· + ·) (Finset.sum_congr rfl fun j _ => ?_) (congrArg x7 ?_)
  · rw [val_main_v37_apply]
    refine congrArg₂ (· * ·) (congrArg (val_main_v36 (F := Ideal) x0 x1 x2 x3 x4 x5) ?_) (congrArg x6 ?_)
    · funext a; match a with | ⟨0, _⟩ => rfl | ⟨1, _⟩ => rfl
    · funext a; match a with | ⟨0, _⟩ => rfl | ⟨1, _⟩ => rfl
  · funext a; match a with | ⟨0, _⟩ => rfl

/-- The result: zero plus the sum of the nodes' outputs. -/
theorem out_apply (d : Fin 3) :
    val_main_v42 (F := Ideal) x0 x1 x2 x3 x4 x5 x6 x7 (ix1 d)
      = 0 + ∑ i : Fin 50000, val_main_v41 (F := Ideal) x0 x1 x2 x3 x4 x5 x6 x7 (ix2 i d) := by
  rw [val_main_v42_apply, val_main_cst_4_apply]
  refine congrArg₂ (· + ·) Ideal.ofBits_zero_f32 (Finset.sum_congr rfl fun i _ => ?_)
  refine congrArg (val_main_v41 (F := Ideal) x0 x1 x2 x3 x4 x5 x6 x7) ?_
  funext a; match a with | ⟨0, _⟩ => rfl | ⟨1, _⟩ => rfl

end Cert.ReferenceIdeal.RefValue

end
-- ==== Proof.RefSeg.lean ====
/-
  The two segment sums of the reference program, read at one entry.

  Every edge `e` has a source node and a destination node. The source column holds the source index of each edge; the
  gather reads it as a signed integer and clamps it into `[0, 49999]`, as every start index of a gather is clamped: that
  node is `src e`. The destination column holds the destination index of each edge; the accumulating scatter reads it as
  a signed integer and does not clamp it, so an edge arrives at node `i` exactly when its destination index, read signed,
  equals `i`: those edges are `hits i`, and an edge whose destination index names no node arrives nowhere.

  The summed message of node `i` in feature `k` is zero plus the sum over the edges `e` arriving at `i` of the transformed
  feature row of the source of `e`,  y(src e, k) = (∑ l, x(src e, l) · W(k, l)) + b(k).  The count of node `i` is zero plus
  the sum of one over the same edges.
-/
import proofs.«133329_j33921651703918_2_alg».proof.Proof.RefStages
import proofs.«133329_j33921651703918_2_alg».proof.Proof.LibSegmentSum
import proofs.«133329_j33921651703918_2_alg».proof.Proof.LibGatherRows
import proofs.«133329_j33921651703918_2_alg».proof.Proof.EdgeSets

noncomputable section

namespace Cert.ReferenceIdeal.RefSeg

open Cert.ReferenceIdeal Cert.ReferenceIdeal.Gen Cert.ReferenceIdeal.Read Cert.ReferenceIdeal.RefValue
open Idealize.ShloMosaic Idealize.ShloMosaic.ValueIdx Cert.Edges

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))

/-- THE SUMMED MESSAGE of node `i` in feature `k`: zero plus the sum, over the edges arriving at `i`, of the transformed
    feature row of the edge's source node. -/
theorem msgsum_apply (i : Fin 50000) (k : Fin 128) :
    val_main_v21 (F := Ideal) x0 x1 x2 x3 (ix2 i k)
      = 0 + ∑ e ∈ hits x1 i, ((∑ l : Fin 128, x0 (ix2 (src x1 e) l) * x2 (ix2 k l)) + x3 (ix1 k)) := by
  unfold val_main_v21
  refine (Cert.SegmentSum.segSumRows_apply _ rfl rfl rfl rfl _ _ _ i k).trans ?_
  refine congrArg₂ (· + ·) ?_ (Finset.sum_congr rfl fun e _ => ?_)
  · rw [val_main_v19_apply, val_main_cst_apply]
    exact Ideal.ofBits_zero_f32
  · unfold val_main_v18
    rw [Cert.GatherRows.gather_rows_apply (by decide : 0 < 50000) _ rfl rfl rfl rfl rfl rfl rfl]
    exact y_apply x0 x2 x3 (src x1 e) k

/-- THE COUNT of node `i`: zero plus the sum of one over the edges arriving at `i`. -/
theorem count_apply (i : Fin 50000) :
    val_main_v25 (F := Ideal) x1 (ix1 i) = 0 + ∑ _e ∈ hits x1 i, (1 : EReal) := by
  unfold val_main_v25
  refine (Cert.SegmentSum.segSumVec_apply _ rfl rfl rfl rfl _ _ _ i).trans ?_
  refine congrArg₂ (· + ·) ?_ (Finset.sum_congr rfl fun e _ => ?_)
  · rw [val_main_v23_apply, val_main_cst_2_apply]
    exact Ideal.ofBits_zero_f32
  · rw [val_main_v22_apply, val_main_cst_1_apply]
    exact Ideal.ofBits_one_f32

end Cert.ReferenceIdeal.RefSeg

end
-- ==== Proof.LibMeanAffine.lean ====
import Mathlib.Data.EReal.Inv
import Mathlib.Algebra.BigOperators.Group.Finset.Basic
import Idealize.ShloMosaic.PureOps.Ideal

/-!
# The mean of affine images is the affine image of the mean

A graph layer averages, over the finite nonempty set `H` of edges arriving at a node, the messages of their
source nodes.  Applying the affine map `row ↦ (∑ l, row l · W l) + b` to every message before averaging gives
the same value as averaging the raw rows and applying the affine map once afterwards:

  `(∑_{e∈H} ((∑_l x e l · W l) + b)) / |H| = (∑_l ((∑_{e∈H} x e l) / |H|) · W l) + b`,

because `∑_{e∈H} ((∑_l x e l · W l) + b) = (∑_l (∑_{e∈H} x e l) · W l) + |H| · b` and `|H| ≥ 1`, so that
`max(|H|, 1) = |H| ≠ 0`.  On the extended reals distributivity fails at the infinities, so the data enter as
coercions of real numbers; every expression is then the coercion of a real expression and the identity is
proved over `ℝ`.  The quotient is the total quotient `Ideal.div`, which off a zero divisor is multiplication
by the inverse.
-/

noncomputable section

namespace Cert.MeanAffine

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a sum of ones over `H` is the cardinality of `H`. -/
theorem count_eq {ε : Type*} (H : Finset ε) :
    (0 : EReal) + ∑ _e ∈ H, (1 : EReal) = ((H.card : ℝ) : EReal) := by
  rw [zero_add, ← EReal.coe_one, ← coe_sum, Finset.sum_const, nsmul_eq_mul, mul_one]

/-- A nonempty set has at least one element, so clamping its cardinality below by one changes nothing. -/
theorem max_count {ε : Type*} {H : Finset ε} (hH : H.Nonempty) :
    max ((H.card : ℝ) : EReal) 1 = ((H.card : ℝ) : EReal) := by
  apply max_eq_left
  have h1 : (1 : ℝ) ≤ (H.card : ℝ) := by exact_mod_cast Finset.one_le_card.mpr hH
  exact_mod_cast h1

/-- A family of extended reals none of which is infinite is the coercion of a family of reals. -/
theorem exists_real {ι : Type*} (f : ι → EReal) (h : ∀ i, f i ≠ ⊤ ∧ f i ≠ ⊥) :
    ∃ r : ι → ℝ, ∀ i, f i = (r i : EReal) :=
  ⟨fun i => (f i).toReal, fun i => (EReal.coe_toReal (h i).1 (h i).2).symm⟩

/-- The identity over the reals: dividing the sum of the affine images by `c = |H|` is the affine image of the
    sums divided by `c`. -/
theorem real_mean_affine {ε : Type*} {n : ℕ} (H : Finset ε) (hc : (H.card : ℝ) ≠ 0)
    (x : ε → Fin n → ℝ) (W : Fin n → ℝ) (b : ℝ) :
    (∑ e ∈ H, ((∑ l : Fin n, x e l * W l) + b)) * (1 / (H.card : ℝ))
      = (∑ l : Fin n, (∑ e ∈ H, x e l) * (1 / (H.card : ℝ)) * W l) + b := by
  rw [Finset.sum_add_distrib, Finset.sum_const, nsmul_eq_mul, Finset.sum_comm, add_mul]
  congr 1
  · rw [Finset.sum_mul]
    refine Finset.sum_congr rfl fun l _ => ?_
    rw [← Finset.sum_mul]
    ring
  · field_simp

/-- The mean over a nonempty edge set of the affine images of real rows equals the affine image of the
    mean row, with the total quotient and the count clamped below by one. -/
theorem mean_affine {ε : Type*} {n : ℕ} (H : Finset ε) (hH : H.Nonempty) (x : ε → Fin n → ℝ)
    (W : Fin n → ℝ) (b : ℝ) :
    Ideal.div ((0 : EReal) + ∑ e ∈ H, ((∑ l : Fin n, (x e l : EReal) * (W l : EReal)) + (b : EReal)))
        (max ((0 : EReal) + ∑ _e ∈ H, (1 : EReal)) 1)
      = (∑ l : Fin n, Ideal.div ((0 : EReal) + ∑ e ∈ H, (x e l : EReal))
          (max ((0 : EReal) + ∑ _e ∈ H, (1 : EReal)) 1) * (W l : EReal)) + (b : EReal) := by
  have hc : (H.card : ℝ) ≠ 0 := by exact_mod_cast (Finset.card_pos.mpr hH).ne'
  rw [count_eq, max_count hH]
  simp only [Ideal.div_coe hc, zero_add, ← EReal.coe_mul, ← coe_sum, ← EReal.coe_add]
  rw [real_mean_affine H hc]

/-- The same identity with the edge set given as the edges of a finite type that satisfy a predicate. -/
theorem mean_affine_filter {ε : Type*} {n : ℕ} [Fintype ε] [DecidableEq ε] (P : ε → Prop) [DecidablePred P]
    (hP : (Finset.univ.filter P).Nonempty) (x : ε → Fin n → ℝ) (W : Fin n → ℝ) (b : ℝ) :
    Ideal.div ((0 : EReal) + ∑ e ∈ Finset.univ.filter P,
          ((∑ l : Fin n, (x e l : EReal) * (W l : EReal)) + (b : EReal)))
        (max ((0 : EReal) + ∑ _e ∈ Finset.univ.filter P, (1 : EReal)) 1)
      = (∑ l : Fin n, Ideal.div ((0 : EReal) + ∑ e ∈ Finset.univ.filter P, (x e l : EReal))
          (max ((0 : EReal) + ∑ _e ∈ Finset.univ.filter P, (1 : EReal)) 1) * (W l : EReal)) + (b : EReal) :=
  mean_affine (Finset.univ.filter P) hP x W b

end Cert.MeanAffine
-- ==== Proof.LibNodeBridge.lean ====
import proofs.«133329_j33921651703918_2_alg».proof.Proof.LibMeanAffine

/-!
# The node law for finite extended reals

The mean over a nonempty edge set `H` of the raw rows, followed by the affine map `row ↦ (∑ l, row l · W l) + b`,
equals the mean over `H` of the affine images of the rows.  Here the data are extended reals known to be
finite (neither `⊤` nor `⊥`): each is then the coercion of a real number, and the identity is the one proved
for coercions of reals, read from right to left.
-/

noncomputable section

namespace Cert.NodeBridge

open Idealize.ShloMosaic Cert.MeanAffine

/-- For finite rows, weights and bias: the affine image of the mean row is the mean of the affine images. -/
theorem node_bridge {ε : Type*} {n : ℕ} (H : Finset ε) (hH : H.Nonempty) (X : ε → Fin n → EReal)
    (W : Fin n → EReal) (b : EReal) (hX : ∀ e l, X e l ≠ ⊤ ∧ X e l ≠ ⊥) (hW : ∀ l, W l ≠ ⊤ ∧ W l ≠ ⊥)
    (hb : b ≠ ⊤ ∧ b ≠ ⊥) :
    (∑ l : Fin n, Ideal.div ((0 : EReal) + ∑ e ∈ H, X e l) (max ((0 : EReal) + ∑ _e ∈ H, (1 : EReal)) 1) * W l) + b
      = Ideal.div ((0 : EReal) + ∑ e ∈ H, ((∑ l : Fin n, X e l * W l) + b))
          (max ((0 : EReal) + ∑ _e ∈ H, (1 : EReal)) 1) := by
  obtain ⟨x, hx⟩ := exists_real (fun p : ε × Fin n => X p.1 p.2) (fun p => hX p.1 p.2)
  obtain ⟨w, hw⟩ := exists_real W hW
  have hXe : X = fun e l => ((x (e, l) : ℝ) : EReal) := funext fun e => funext fun l => hx (e, l)
  have hWe : W = fun l => ((w l : ℝ) : EReal) := funext hw
  have hbe : b = ((b.toReal : ℝ) : EReal) := (EReal.coe_toReal hb.1 hb.2).symm
  rw [hXe, hWe, hbe]
  exact (mean_affine H hH (fun e l => x (e, l)) w b.toReal).symm

end Cert.NodeBridge
-- ==== Proof.FiniteArgs.lean ====
import proofs.«133329_j33921651703918_2_alg».proof.Pre_finite_inputs
import proofs.«133329_j33921651703918_2_alg».proof.Proof.Gen.Pre_finite_inputs
import Idealize.ShloMosaic.Lib.ReduceAll
import Idealize.ShloMosaic.Lib.ValueIdx
import Idealize.ShloMosaic.PureOps.Ideal

/-!
# The precondition read back: every entry of a float argument is a real number

The precondition is the conjunction, over the seven float arguments `a`, of `all (|a| < +∞)`.  With floats read
as extended reals, `|x| = max x (-x)`, the literal `0x7F800000` is `⊤`, and the comparison is the strict order.
`max x (-x) < ⊤` holds exactly when `x ≠ ⊤` and `-x ≠ ⊤`, that is `x ≠ ⊥`.  A conjunction of bits is one exactly
when each bit is one, and a reduction by `and` over all axes is one only if every entry is one; so the
precondition gives that no entry of any float argument is infinite.
-/

noncomputable section

namespace Cert.FiniteArgs

open Idealize.ShloMosaic Idealize.ShloMosaic.ValueIdx Cert.Pre_finite_inputs

/-- The rank-zero shape has exactly one index. -/
instance : Subsingleton S_.Idx := ⟨fun _ _ => funext fun d => d.elim0⟩

/-- On one value: if `|x| < +∞` evaluates to one, then `x` is neither infinity. -/
theorem finite_of_abs_lt_inf (x : Ideal .f32)
    (h : FloatOps.cmpf .olt (FloatOps.hostAbsf x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  constructor
  · rintro rfl
    simp at h
  · rintro rfl
    simp at h

/-- On a whole array: if the reduction by `and` over all axes of `|a| < +∞` is one, no entry of `a` is infinite. -/
theorem all_finite {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf a) (broadcastInDim s ![] hb (constant S_ .f32 0x7F800000#32))) init hr hu ix0 = 1#1) :
    ∀ i, a i ≠ ⊤ ∧ a i ≠ ⊥ := fun i =>
  finite_of_abs_lt_inf (a i) (Host.reduce_andi_all _ init hr hu ix0 h i)

/-- The precondition gives that every entry of each of the seven float arguments is a real number. -/
theorem finite_of_pre_all [Facts] (a0 : FVec Ideal S50000x128 .f32) (a1 : IVec S2x600000 32)
    (a2 : FVec Ideal S128x128 .f32) (a3 : FVec Ideal S128 .f32) (a4 : FVec Ideal S128x128 .f32)
    (a5 : FVec Ideal S128 .f32) (a6 : FVec Ideal S3x128 .f32) (a7 : FVec Ideal S3 .f32)
    (h : fn (F := Ideal) a0 a1 a2 a3 a4 a5 a6 a7 = (fun _ => 1#1)) :
    (∀ i, a0 i ≠ ⊤ ∧ a0 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥)
      ∧ (∀ i, a7 i ≠ ⊤ ∧ a7 i ≠ ⊥) := by
  have h0 := congrFun h ix0
  dsimp only [fn, fn_part1, andi] at h0
  simp only [IntOp.andi_eq_one] at h0
  obtain ⟨⟨⟨⟨⟨⟨e0, e2⟩, e3⟩, e4⟩, e5⟩, e6⟩, e7⟩ := h0
  exact ⟨all_finite a0 _ _ _ _ e0, all_finite a2 _ _ _ _ e2, all_finite a3 _ _ _ _ e3, all_finite a4 _ _ _ _ e4,
    all_finite a5 _ _ _ _ e5, all_finite a6 _ _ _ _ e6, all_finite a7 _ _ _ _ e7⟩

/-- The precondition gives that every entry of the node features, of the first weight matrix and of the first
    bias is a real number. -/
theorem finite_of_pre [Facts] (a0 : FVec Ideal S50000x128 .f32) (a1 : IVec S2x600000 32)
    (a2 : FVec Ideal S128x128 .f32) (a3 : FVec Ideal S128 .f32) (a4 : FVec Ideal S128x128 .f32)
    (a5 : FVec Ideal S128 .f32) (a6 : FVec Ideal S3x128 .f32) (a7 : FVec Ideal S3 .f32)
    (h : fn (F := Ideal) a0 a1 a2 a3 a4 a5 a6 a7 = (fun _ => 1#1)) :
    (∀ i, a0 i ≠ ⊤ ∧ a0 i ≠ ⊥) ∧ (∀ i, a2 i ≠ ⊤ ∧ a2 i ≠ ⊥) ∧ (∀ i, a3 i ≠ ⊤ ∧ a3 i ≠ ⊥) :=
  let ⟨h0, h2, h3, _⟩ := finite_of_pre_all a0 a1 a2 a3 a4 a5 a6 a7 h
  ⟨h0, h2, h3⟩

end Cert.FiniteArgs
-- ==== Proof.Bridge.lean ====
/-
  The two programs compute one function of finite arguments.

  Both results are zero plus the sum over the 50000 nodes of a node's term, and the two terms differ in one place only: the
  kernel takes the mean of the raw source rows over the edges arriving at the node and then applies the linear layer once,
  the reference applies the linear layer to every source row and then takes the mean. The edges arriving at a node form a
  nonempty set (the node's own loop), the count is their number, and the features, the weight and the bias are finite, so the
  mean of the transformed rows is the transform of the mean row. The remaining layers are the same operations of that row.
-/
import proofs.«133329_j33921651703918_2_alg».proof.Proof.KernelSum
import proofs.«133329_j33921651703918_2_alg».proof.Proof.KernelSeg
import proofs.«133329_j33921651703918_2_alg».proof.Proof.RefStages
import proofs.«133329_j33921651703918_2_alg».proof.Proof.RefSeg
import proofs.«133329_j33921651703918_2_alg».proof.Proof.SelfLoop
import proofs.«133329_j33921651703918_2_alg».proof.Proof.LibNodeBridge
import proofs.«133329_j33921651703918_2_alg».proof.Proof.FiniteArgs

noncomputable section

namespace Cert.Bridge

open Cert.KernelIdeal Cert.KernelIdeal.Gen Cert.KernelIdeal.Value
open Idealize.ShloMosaic Idealize.ShloMosaic.TcCoe Idealize.SL.Sem Idealize.ShloMosaic.ValueIdx
open Cert.Edges

variable (m : (ℓ : Loc nD τ sig) → Buf (Elt Ideal) ℓ) (c : Dev nD)

/-- The features, as extended reals. -/
abbrev feat : S50000x128.Idx → EReal := m (c, Proc.tc.devRef main_arg0)
/-- The linear layer's weight, as extended reals. -/
abbrev wlin : S128x128.Idx → EReal := m (c, Proc.tc.devRef main_arg2)
/-- The linear layer's bias, as extended reals. -/
abbrev blin : S128.Idx → EReal := m (c, Proc.tc.devRef main_arg3)

/-- Node i's term is the same in both programs. -/
theorem node_eq
    (h0 : ∀ i, feat m c i ≠ ⊤ ∧ feat m c i ≠ ⊥)
    (h2 : ∀ i, wlin m c i ≠ ⊤ ∧ wlin m c i ≠ ⊥)
    (h3 : ∀ i, blin m c i ≠ ⊤ ∧ blin m c i ≠ ⊥)
    (i : Fin 50000) (d : Fin 3) :
    Cert.KernelIdeal.Sum.nodeK m c i d
      = Cert.ReferenceIdeal.Read.val_main_v41 (F := Ideal) (m (c, Proc.tc.devRef main_arg0)) (m (c, Proc.tc.devRef main_arg1))
          (m (c, Proc.tc.devRef main_arg2)) (m (c, Proc.tc.devRef main_arg3)) (m (c, Proc.tc.devRef main_arg4))
          (m (c, Proc.tc.devRef main_arg5)) (m (c, Proc.tc.devRef main_arg6)) (m (c, Proc.tc.devRef main_arg7)) (ix2 i d) := by
  rw [Cert.ReferenceIdeal.RefValue.node_apply]
  unfold Cert.KernelIdeal.Sum.nodeK Cert.KernelIdeal.Node.nodeG
  rw [Cert.KernelIdeal.Seg.b2_apply m c d]
  refine congrArg₂ (· + ·) (Finset.sum_congr rfl fun j _ => ?_) rfl
  rw [Cert.ReferenceIdeal.RefValue.hidden_apply, Cert.KernelIdeal.Seg.b1_apply m c j]
  refine congrArg₂ (· * ·) (congrArg₂ max (congrArg₂ (· + ·) (Finset.sum_congr rfl fun k _ => ?_) rfl) rfl)
    (congrFun (V_main_arg6 m c) _)
  rw [Cert.ReferenceIdeal.RefValue.mean_apply, Cert.ReferenceIdeal.RefSeg.msgsum_apply,
    Cert.ReferenceIdeal.RefSeg.count_apply, Cert.KernelIdeal.Seg.blin_apply m c k,
    Cert.KernelIdeal.Seg.counts_apply m c i]
  refine congrArg₂ (· * ·) ?_ (congrFun (V_main_arg4 m c) _)
  have hb := Cert.NodeBridge.node_bridge (hits (m (c, Proc.tc.devRef main_arg1)) i)
    (Cert.ReferenceIdeal.SelfLoop.hits_nonempty (m (c, Proc.tc.devRef main_arg1)) i)
    (fun e l => feat m c (ix2 (src (m (c, Proc.tc.devRef main_arg1)) e) l))
    (fun l => wlin m c (ix2 k l))
    (blin m c (ix1 k))
    (fun e l => h0 _) (fun l => h2 _) (h3 _)
  refine Eq.trans ?_ hb
  refine congrArg₂ (· + ·) (Finset.sum_congr rfl fun l _ => ?_) rfl
  rw [Cert.KernelIdeal.Seg.sums_apply m c i l]
  exact congrArg₂ (· * ·) rfl (congrFun (V_main_arg2 m c) _)

/-- The reference's result is the kernel's. -/
theorem result_eq
    (hp : Cert.Pre_finite_inputs.fn (F := Ideal) (m (c, Proc.tc.devRef main_arg0)) (m (c, Proc.tc.devRef main_arg1))
      (m (c, Proc.tc.devRef main_arg2)) (m (c, Proc.tc.devRef main_arg3)) (m (c, Proc.tc.devRef main_arg4))
      (m (c, Proc.tc.devRef main_arg5)) (m (c, Proc.tc.devRef main_arg6)) (m (c, Proc.tc.devRef main_arg7)) = (fun _ => 1#1)) :
    Cert.ReferenceIdeal.Read.val_main_v42 (F := Ideal) (m (c, Proc.tc.devRef main_arg0)) (m (c, Proc.tc.devRef main_arg1))
        (m (c, Proc.tc.devRef main_arg2)) (m (c, Proc.tc.devRef main_arg3)) (m (c, Proc.tc.devRef main_arg4))
        (m (c, Proc.tc.devRef main_arg5)) (m (c, Proc.tc.devRef main_arg6)) (m (c, Proc.tc.devRef main_arg7))
      = (G8 m c : S3.Idx → EReal) := by
  obtain ⟨h0, h2, h3⟩ := Cert.FiniteArgs.finite_of_pre _ _ _ _ _ _ _ _ hp
  funext i
  obtain ⟨d, rfl⟩ : ∃ d : Fin 3, i = ix1 d := ⟨i 0, eq_ix1 i⟩
  rw [Cert.ReferenceIdeal.RefValue.out_apply, Cert.KernelIdeal.Sum.out_apply m c d]
  exact congrArg (0 + ·) (Finset.sum_congr rfl fun n _ => (node_eq m c h0 h2 h3 n d).symm)

/-- The same, for arrays given as variables equal to the memory's argument buffers. -/
theorem result_eq_at
    (x0 : S50000x128.Idx → EReal) (x1 : S2x600000.Idx → BitVec 32) (x2 : S128x128.Idx → EReal) (x3 : S128.Idx → EReal)
    (x4 : S128x128.Idx → EReal) (x5 : S128.Idx → EReal) (x6 : S3x128.Idx → EReal) (x7 : S3.Idx → EReal)
    (e0 : x0 = m (c, Proc.tc.devRef main_arg0)) (e1 : x1 = m (c, Proc.tc.devRef main_arg1))
    (e2 : x2 = m (c, Proc.tc.devRef main_arg2)) (e3 : x3 = m (c, Proc.tc.devRef main_arg3))
    (e4 : x4 = m (c, Proc.tc.devRef main_arg4)) (e5 : x5 = m (c, Proc.tc.devRef main_arg5))
    (e6 : x6 = m (c, Proc.tc.devRef main_arg6)) (e7 : x7 = m (c, Proc.tc.devRef main_arg7))
    (hp : Cert.Pre_finite_inputs.fn (F := Ideal) x0 x1 x2 x3 x4 x5 x6 x7 = (fun _ => 1#1)) :
    Cert.ReferenceIdeal.Read.val_main_v42 (F := Ideal) x0 x1 x2 x3 x4 x5 x6 x7 = (G8 m c : S3.Idx → EReal) := by
  subst e0 e1 e2 e3 e4 e5 e6 e7
  exact result_eq m c hp

end Cert.Bridge

end
-- ==== Proof.lean ====
/-
  A graph layer with mean aggregation followed by a two-layer head, summed over the nodes: the tiled kernel against the
  plain reference, on the extended reals.

  Both programs add one self loop per node to the edge list, sum over the edges arriving at each node the rows of their
  source nodes, count those edges, and divide the sum by the count (at least one). The reference applies the linear layer
  x ↦ x·Wᵀ + b to every node BEFORE the rows are gathered and summed; the kernel sums the raw rows and applies the layer once
  per node AFTER the division. For finite features, weight and bias these agree: the sum over a node's incoming edges of
  (row·Wᵀ + b) is (the sum of the rows)·Wᵀ + count·b, the count is the number of those edges, which is not zero because the
  node's own loop is among them, so dividing by it gives (mean row)·Wᵀ + b. This is the one place where the precondition
  (every float argument finite) is used: on the extended reals a product does not distribute over a sum at infinities.
  After that both programs apply the same hidden layer (rectified), the same output layer, and sum the 50000 nodes' outputs;
  the kernel does so in ten blocks of 5000 rows, accumulating in its output buffer from zero, which is the same sum because
  addition is commutative and associative.

  The kernel's run with its result named, the reference's run and its stage-by-stage reading are imported; the modules
  under Proof/ read the kernel body at an index, read the blocks as rows of the arrays, read the two segment sums and the
  gather as plain sums over edges, and prove the algebra.
-/
import proofs.«133329_j33921651703918_2_alg».proof.Defs
import proofs.«133329_j33921651703918_2_alg».proof.Proof.Gen.Kernel.Frame
import proofs.«133329_j33921651703918_2_alg».proof.Proof.Gen.KernelIdeal.Value
import proofs.«133329_j33921651703918_2_alg».proof.Proof.Gen.Pre_finite_inputs
import proofs.«133329_j33921651703918_2_alg».proof.Proof.Gen.ReferenceIdeal.Run
import proofs.«133329_j33921651703918_2_alg».proof.Proof.Bridge
import proofs.«133329_j33921651703918_2_alg».proof.Proof.Gen.ReferenceIdeal.Read
import Idealize.ShloMosaic.Adequacy
import Idealize.ShloMosaic.Init

noncomputable section

namespace Cert.Proof

open Idealize.ShloMosaic Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments as they were: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the arguments, both idealized programs end with the same three sums. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  refine ((h c).1.trans (Cert.ReferenceIdeal.Read.val_main_v42_eq (F := Ideal) _ _ _ _ _ _ _ _)).trans ?_
  exact Cert.Bridge.result_eq_at m c _ _ _ _ _ _ _ _ a0 a1 a2 a3 a4 a5 a6 a7
    (by rw [a0, a1, a2, a3, a4, a5, a6, a7]; exact hpre c)

theorem claim : Cert.Claim := ⟨Cert.Kernel.Gen.facts, Cert.KernelIdeal.Gen.facts, Cert.ReferenceIdeal.Gen.facts,
  Cert.Pre_finite_inputs.Gen.facts, fun m ρ _ => Cert.Kernel.Gen.frame m ρ, frame_KernelIdeal, frame_ReferenceIdeal,
  (trivial : preserves_Kernel_KernelIdeal), algebraic_KernelIdeal_ReferenceIdeal⟩

end Cert.Proof

end
